-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S8x1024x4096 : Shape := ⟨3, ![8, 1024, 4096]⟩
abbrev S8x4096 : Shape := ⟨2, ![8, 4096]⟩
abbrev S8x1024 : Shape := ⟨2, ![8, 1024]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S8x1024x4096 : S_.BroadcastsInDim S8x1024x4096 (![] : Fin 0 → Fin S8x1024x4096.rank)
  reducesTo_S8x1024x4096_S_d0_1_2 : S8x1024x4096.ReducesTo [0, 1, 2] S_
  bcast_S_S8x4096 : S_.BroadcastsInDim S8x4096 (![] : Fin 0 → Fin S8x4096.rank)
  reducesTo_S8x4096_S_d0_1 : S8x4096.ReducesTo [0, 1] S_
  bcast_S_S8x1024 : S_.BroadcastsInDim S8x1024 (![] : Fin 0 → Fin S8x1024.rank)
  reducesTo_S8x1024_S_d0_1 : S8x1024.ReducesTo [0, 1] S_

variable [Facts]

def fn_part1 {F : FTy → Type} [FloatOps F] (main_arg4 : FVec F S8x1024 .f32) (main_v13 : IVec S_ 1) (main_v16 : IVec S8x4096x1024 1) : IVec S_ 1 :=
  let main_c_5 : IVec S_ 1 := constantI S_ 1 1#1
  let main_v17 : IVec S_ 1 := (fun x v => Host.reduce IntOp.andi x v reducesTo_S8x4096x1024_S_d0_1_2 h_S_) main_v16 main_c_5
  let main_v18 : IVec S_ 1 := andi main_v13 main_v17
  let main_v19 : FVec F S8x1024 .f32 := Host.absf main_arg4
  let main_cst_6 : FVec F S_ .f32 := constant S_ .f32 0x7F800000#32
  let main_v20 : FVec F S8x1024 .f32 := broadcastInDim S8x1024 ![] bcast_S_S8x1024 main_cst_6
  let main_v21 : IVec S8x1024 1 := cmpf .olt main_v19 main_v20
  let main_c_7 : IVec S_ 1 := constantI S_ 1 1#1
  let main_v22 : IVec S_ 1 := (fun x v => Host.reduce IntOp.andi x v reducesTo_S8x1024_S_d0_1 h_S_) main_v21 main_c_7
  let main_v23 : IVec S_ 1 := andi main_v18 main_v22
  main_v23

def fn {F : FTy → Type} [FloatOps F] (main_arg0 : FVec F S8x4096x1024 .f32) (main_arg1 : FVec F S8x1024x4096 .f32) (main_arg2 : FVec F S8x4096 .f32) (main_arg3 : FVec F S8x4096x1024 .f32) (main_arg4 : FVec F S8x1024 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S8x1024x4096 .f32 := Host.absf main_arg1
  let main_cst_0 : FVec F S_ .f32 := constant S_ .f32 0x7F800000#32
  let main_v5 : FVec F S8x1024x4096 .f32 := broadcastInDim S8x1024x4096 ![] bcast_S_S8x1024x4096 main_cst_0
  let main_v6 : IVec S8x1024x4096 1 := cmpf .olt main_v4 main_v5
  let main_c_1 : IVec S_ 1 := constantI S_ 1 1#1
  let main_v7 : IVec S_ 1 := (fun x v => Host.reduce IntOp.andi x v reducesTo_S8x1024x4096_S_d0_1_2 h_S_) main_v6 main_c_1
  let main_v8 : IVec S_ 1 := andi main_v3 main_v7
  let main_v9 : FVec F S8x4096 .f32 := Host.absf main_arg2
  let main_cst_2 : FVec F S_ .f32 := constant S_ .f32 0x7F800000#32
  let main_v10 : FVec F S8x4096 .f32 := broadcastInDim S8x4096 ![] bcast_S_S8x4096 main_cst_2
  let main_v11 : IVec S8x4096 1 := cmpf .olt main_v9 main_v10
  let main_c_3 : IVec S_ 1 := constantI S_ 1 1#1
  let main_v12 : IVec S_ 1 := (fun x v => Host.reduce IntOp.andi x v reducesTo_S8x4096_S_d0_1 h_S_) main_v11 main_c_3
  let main_v13 : IVec S_ 1 := andi main_v8 main_v12
  let main_v14 : FVec F S8x4096x1024 .f32 := Host.absf main_arg3
  let main_cst_4 : FVec F S_ .f32 := constant S_ .f32 0x7F800000#32
  let main_v15 : FVec F S8x4096x1024 .f32 := broadcastInDim S8x4096x1024 ![] bcast_S_S8x4096x1024 main_cst_4
  let main_v16 : IVec S8x4096x1024 1 := cmpf .olt main_v14 main_v15
  fn_part1 (F := F) main_arg4 main_v13 main_v16
-- ==== Kernel.lean ====
abbrev S8x4096x1024 : Shape := ⟨3, ![8, 4096, 1024]⟩
abbrev S8x1024x4096 : Shape := ⟨3, ![8, 1024, 4096]⟩
abbrev S8x4096 : Shape := ⟨2, ![8, 4096]⟩
abbrev S8x1024 : Shape := ⟨2, ![8, 1024]⟩
abbrev S1x256x1024 : Shape := ⟨3, ![1, 256, 1024]⟩
abbrev S1x1024x4096 : Shape := ⟨3, ![1, 1024, 4096]⟩
abbrev S1x4096x1024 : Shape := ⟨3, ![1, 4096, 1024]⟩
abbrev S256x1024 : Shape := ⟨2, ![256, 1024]⟩
abbrev S1024x4096 : Shape := ⟨2, ![1024, 4096]⟩
abbrev S256x4096 : Shape := ⟨2, ![256, 4096]⟩
abbrev S1x4096 : Shape := ⟨2, ![1, 4096]⟩
abbrev S4096 : Shape := ⟨1, ![4096]⟩
abbrev S4096x1024 : Shape := ⟨2, ![4096, 1024]⟩
abbrev S1x1024 : Shape := ⟨2, ![1, 1024]⟩
abbrev S1024 : Shape := ⟨1, ![1024]⟩

abbrev nBuf : Space → Nat
  | .hbm => 9
  | .vmem => 8
  | .smem => 0
  | _ => 0

abbrev bufTy : (tb : Table) → Fin (tcTables nBuf tb) → BufTy
  | .hbm, ⟨0, _⟩ => ⟨S8x4096x1024, .f32⟩
  | .hbm, ⟨1, _⟩ => ⟨S8x1024x4096, .f32⟩
  | .hbm, ⟨2, _⟩ => ⟨S8x4096, .f32⟩
  | .hbm, ⟨3, _⟩ => ⟨S8x4096x1024, .f32⟩
  | .hbm, ⟨4, _⟩ => ⟨S8x1024, .f32⟩
  | .hbm, ⟨5, _⟩ => ⟨S8x4096x1024, .bf16⟩
  | .hbm, ⟨6, _⟩ => ⟨S8x1024x4096, .bf16⟩
  | .hbm, ⟨7, _⟩ => ⟨S8x4096x1024, .bf16⟩
  | .hbm, ⟨8, _⟩ => ⟨S8x4096x1024, .f32⟩
  | .local _ .vmem, ⟨0, _⟩ => ⟨S1x256x1024, .bf16⟩
  | .local _ .vmem, ⟨1, _⟩ => ⟨S1x256x1024, .bf16⟩
  | .local _ .vmem, ⟨2, _⟩ => ⟨S1x1024x4096, .bf16⟩
  | .local _ .vmem, ⟨3, _⟩ => ⟨S8x4096, .f32⟩
  | .local _ .vmem, ⟨4, _⟩ => ⟨S1x4096x1024, .bf16⟩
  | .local _ .vmem, ⟨5, _⟩ => ⟨S8x1024, .f32⟩
  | .local _ .vmem, ⟨6, _⟩ => ⟨S1x256x1024, .f32⟩
  | .local _ .vmem, ⟨7, _⟩ => ⟨S1x256x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![8, 16], ![false, false]⟩

def k0_off1 (i : grid0.Coords) : Fin 2 → Nat :=
  let arg0 : BitVec 32 := BitVec.ofNat 32 (i 0).val
  let v5 : Index := Scalar.indexCast arg0
  let c0_5 : Index := 0#32
  ![v5.toNat, 0]
def k0_off2 (i : grid0.Coords) : Fin 2 → Nat :=
  let arg0 : BitVec 32 := BitVec.ofNat 32 (i 0).val
  let v17 : Index := Scalar.indexCast arg0
  let c0_11 : Index := 0#32
  ![v17.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S8x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  bitsLt_bf16_f32 : FTy.bits .bf16 < FTy.bits .f32
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1x1024x4096_S1x1024x4096_0_0_0 : ∀ a, (![0, 0, 0] : Fin 3 → Nat) a + S1x1024x4096.size a ≤ S1x1024x4096.size a
  h_S1x1024x4096 : 0 < S1x1024x4096.numel
  shapeCasts_S1x1024x4096_S1024x4096 : S1x1024x4096.ShapeCasts S1024x4096
  h_S1x4096 : 0 < S1x4096.numel
  shapeCasts_S1x4096_S4096 : S1x4096.ShapeCasts S4096
  shapeCasts_S4096_S1x4096 : S4096.ShapeCasts S1x4096
  broadcasts_S1x4096_S256x4096 : S1x4096.Broadcasts S256x4096
  inb_S1x4096x1024_S1x4096x1024_0_0_0 : ∀ a, (![0, 0, 0] : Fin 3 → Nat) a + S1x4096x1024.size a ≤ S1x4096x1024.size a
  h_S1x4096x1024 : 0 < S1x4096x1024.numel
  shapeCasts_S1x4096x1024_S4096x1024 : S1x4096x1024.ShapeCasts S4096x1024
  h_S1x1024 : 0 < S1x1024.numel
  shapeCasts_S1x1024_S1024 : S1x1024.ShapeCasts S1024
  shapeCasts_S1024_S1x1024 : S1024.ShapeCasts S1x1024
  broadcasts_S1x1024_S256x1024 : S1x1024.Broadcasts S256x1024
  shapeCasts_S256x1024_S1x256x1024 : S256x1024.ShapeCasts S1x256x1024
  dot_S256x1024_S1024x4096_S256x4096_1_0_0_1_n_n_wf : DotDims.WF S256x1024 S1024x4096 S256x4096 [1] [0] [0] [1] [] []
  dot_S256x4096_S4096x1024_S256x1024_1_0_0_1_n_n_wf : DotDims.WF S256x4096 S4096x1024 S256x1024 [1] [0] [0] [1] [] []
  hrank0 : 0 < grid0.rank
  k0_off1_inb : ∀ i : grid0.Coords, ∀ a, (k0_off1 i) a + S1x4096.size a ≤ S8x4096.size a
  k0_off2_inb : ∀ i : grid0.Coords, ∀ a, (k0_off2 i) a + S1x1024.size a ≤ S8x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S8x4096x1024.size a
  hwx0_0 : ∀ i : grid0.Coords, EltTy.bits .bf16 = 32 ∨ (Rect.block (s := S8x4096x1024) S1x256x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024x4096.size a ≤ S8x1024x4096.size a
  hwx0_1 : ∀ i : grid0.Coords, EltTy.bits .bf16 = 32 ∨ (Rect.block (s := S8x1024x4096) S1x1024x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x4096.size a ≤ S8x4096.size a
  hwx0_2 : ∀ i : grid0.Coords, EltTy.bits .f32 = 32 ∨ (Rect.block (s := S8x4096) S8x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096x1024.size a ≤ S8x4096x1024.size a
  hwx0_3 : ∀ i : grid0.Coords, EltTy.bits .bf16 = 32 ∨ (Rect.block (s := S8x4096x1024) S1x4096x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x1024.size a ≤ S8x1024.size a
  hwx0_4 : ∀ i : grid0.Coords, EltTy.bits .f32 = 32 ∨ (Rect.block (s := S8x1024) S8x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x1024.size a ≤ S8x4096x1024.size a
  hwx0_5 : ∀ i : grid0.Coords, EltTy.bits .f32 = 32 ∨ (Rect.block (s := S8x4096x1024) S1x256x1024.size (cc0_transform_5 i) (hinb0_5 i)).WholeWords (EltTy.packing .f32)

variable [Facts₀]

def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf
def dot_S256x4096_S4096x1024_S256x1024_1_0_0_1_n_n : DotDims S256x4096 S4096x1024 S256x1024 where
  lhsContracting := [1]
  rhsContracting := [0]
  lhsNonContracting := [0]
  rhsNonContracting := [1]
  lhsBatch := []
  rhsBatch := []
  wf := dot_S256x4096_S4096x1024_S256x1024_1_0_0_1_n_n_wf

abbrev win0_0 : Pipeline.Window sig grid0 :=
  Pipeline.Window.ofSpec (Memref.whole main_v0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x4096x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S8x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x256x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x4096x1024 : Shape := ⟨3, ![8, 4096, 1024]⟩
abbrev S8x1024x4096 : Shape := ⟨3, ![8, 1024, 4096]⟩
abbrev S8x4096 : Shape := ⟨2, ![8, 4096]⟩
abbrev S8x1024 : Shape := ⟨2, ![8, 1024]⟩
abbrev S8x4096x4096 : Shape := ⟨3, ![8, 4096, 4096]⟩
abbrev S8x1x4096 : Shape := ⟨3, ![8, 1, 4096]⟩
abbrev S_ : Shape := ⟨0, ![]⟩
abbrev S8x1x1024 : Shape := ⟨3, ![8, 1, 1024]⟩

abbrev nBuf : Space → Nat
  | .hbm => 16
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x1024x4096, .f32⟩
  | .hbm, ⟨2, _⟩ => ⟨S8x4096, .f32⟩
  | .hbm, ⟨3, _⟩ => ⟨S8x4096x1024, .f32⟩
  | .hbm, ⟨4, _⟩ => ⟨S8x1024, .f32⟩
  | .hbm, ⟨5, _⟩ => ⟨S8x4096x4096, .f32⟩
  | .hbm, ⟨6, _⟩ => ⟨S8x1x4096, .f32⟩
  | .hbm, ⟨7, _⟩ => ⟨S8x4096x4096, .f32⟩
  | .hbm, ⟨8, _⟩ => ⟨S8x4096x4096, .f32⟩
  | .hbm, ⟨9, _⟩ => ⟨S_, .f32⟩
  | .hbm, ⟨10, _⟩ => ⟨S8x4096x4096, .f32⟩
  | .hbm, ⟨11, _⟩ => ⟨S8x4096x4096, .f32⟩
  | .hbm, ⟨12, _⟩ => ⟨S8x4096x1024, .f32⟩
  | .hbm, ⟨13, _⟩ => ⟨S8x1x1024, .f32⟩
  | .hbm, ⟨14, _⟩ => ⟨S8x4096x1024, .f32⟩
  | .hbm, ⟨15, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩

abbrev nD : Nat := 1
abbrev τ : Topo := Topo.v7x

variable {F : FTy → Type} [FloatOps F]

class Facts₀ : Prop where
  bcast_S8x4096_S8x1x4096_0_2 : S8x4096.BroadcastsInDim S8x1x4096 (![0, 2] : Fin 2 → Fin S8x1x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  bcast_S8x1024_S8x1x1024_0_2 : S8x1024.BroadcastsInDim S8x1x1024 (![0, 2] : Fin 2 → Fin S8x1x1024.rank)
  bcast_S8x1x1024_S8x4096x1024_0_1_2 : S8x1x1024.BroadcastsInDim S8x4096x1024 (![0, 1, 2] : Fin 3 → Fin S8x4096x1024.rank)
  dot_S8x4096x1024_S8x1024x4096_S8x4096x4096_2_1_1_2_0_0_wf : DotDims.WF S8x4096x1024 S8x1024x4096 S8x4096x4096 [2] [1] [1] [2] [0] [0]
  dot_S8x4096x4096_S8x4096x1024_S8x4096x1024_2_1_1_2_0_0_wf : DotDims.WF S8x4096x4096 S8x4096x1024 S8x4096x1024 [2] [1] [1] [2] [0] [0]

variable [Facts₀]

def dot_S8x4096x1024_S8x1024x4096_S8x4096x4096_2_1_1_2_0_0 : DotDims S8x4096x1024 S8x1024x4096 S8x4096x4096 where
  lhsContracting := [2]
  rhsContracting := [1]
  lhsNonContracting := [1]
  rhsNonContracting := [2]
  lhsBatch := [0]
  rhsBatch := [0]
  wf := dot_S8x4096x1024_S8x1024x4096_S8x4096x4096_2_1_1_2_0_0_wf
def dot_S8x4096x4096_S8x4096x1024_S8x4096x1024_2_1_1_2_0_0 : DotDims S8x4096x4096 S8x4096x1024 S8x4096x1024 where
  lhsContracting := [2]
  rhsContracting := [1]
  lhsNonContracting := [1]
  rhsNonContracting := [2]
  lhsBatch := [0]
  rhsBatch := [0]
  wf := dot_S8x4096x4096_S8x4096x1024_S8x4096x1024_2_1_1_2_0_0_wf

class Facts : Prop extends Facts₀ where

variable [Facts]
-- ==== Proof.Spec.lean ====
/-
  The function both programs compute, stated once over the five argument arrays.

  There are eight experts. Expert `e` maps its 4096 rows of width 1024 through two dense layers:
    hidden e c h = max (∑ m, x[e,c,m] · w₁[e,m,h] + b₁[e,h]) 0          (4096 hidden units, rectified)
    ffn    e c o = ∑ h, hidden e c h · w₂[e,h,o] + b₂[e,o]               (1024 outputs)
  All arithmetic is on the extended reals; a sum is a sum over the whole contracted axis, in no particular order or
  tiling, and a change of float format does not appear at all.
-/
import Idealize.ShloMosaic.PureOps.Ideal
import Idealize.ShloMosaic.Lib.ValueIdx

noncomputable section

namespace Cert.ExpertFfn

open Idealize.ShloMosaic Idealize.ShloMosaic.ValueIdx

/-- The rows: eight experts, 4096 rows each, 1024 features. Also the shape of the second weights and of the result. -/
abbrev SRows : Shape := ⟨3, ![8, 4096, 1024]⟩
/-- The first layer's weights: per expert a 1024 × 4096 matrix. -/
abbrev SW1 : Shape := ⟨3, ![8, 1024, 4096]⟩
/-- The first layer's bias: per expert 4096 numbers. -/
abbrev SB1 : Shape := ⟨2, ![8, 4096]⟩
/-- The second layer's bias: per expert 1024 numbers. -/
abbrev SB2 : Shape := ⟨2, ![8, 1024]⟩

/-- The first layer before the bias: row `c` of expert `e` against column `h` of that expert's first weights. -/
def pre1 (x : SRows.Idx → EReal) (w1 : SW1.Idx → EReal) (e : Fin 8) (c : Fin 4096) (h : Fin 4096) : EReal :=
  ∑ m : Fin 1024, x (ix3 e c m) * w1 (ix3 e m h)

/-- Hidden unit `h` of row `c` of expert `e`: the first layer with its bias, rectified. -/
def hidden (x : SRows.Idx → EReal) (w1 : SW1.Idx → EReal) (b1 : SB1.Idx → EReal) (e : Fin 8) (c : Fin 4096) (h : Fin 4096) : EReal :=
  max (pre1 x w1 e c h + b1 (ix2 e h)) 0

/-- Output `o` of row `c` of expert `e`: the hidden row against column `o` of that expert's second weights, plus the bias. -/
def ffnAt (x : SRows.Idx → EReal) (w1 : SW1.Idx → EReal) (b1 : SB1.Idx → EReal) (w2 : SRows.Idx → EReal) (b2 : SB2.Idx → EReal)
    (e : Fin 8) (c : Fin 4096) (o : Fin 1024) : EReal :=
  (∑ h : Fin 4096, hidden x w1 b1 e c h * w2 (ix3 e h o)) + b2 (ix2 e o)

/-- The whole result array. -/
def ffn (x : SRows.Idx → EReal) (w1 : SW1.Idx → EReal) (b1 : SB1.Idx → EReal) (w2 : SRows.Idx → EReal) (b2 : SB2.Idx → EReal) :
    SRows.Idx → EReal :=
  fun j => ffnAt x w1 b1 w2 b2 (j 0) (j 1) (j 2)

end Cert.ExpertFfn

end
-- ==== Proof.RefIsFfn.lean ====
/-
  The reference program computes `ffn`.

  Its eleven host operations, read one at a time at an index: a batched product over the feature axis (per expert
  `e`, row `c`, hidden unit `h`: the sum over `m` of x[e,c,m] · w₁[e,m,h]); the first bias, broadcast along the row
  axis; the rectifier as a maximum with a broadcast zero; a second batched product over the hidden axis; the second
  bias, broadcast along the row axis. Composed, that is `ffnAt e c o`.
-/
import proofs.«151796_j24412594110829_1_alg».proof.Proof.Gen.ReferenceIdeal.Read
import proofs.«151796_j24412594110829_1_alg».proof.Proof.Spec

noncomputable section

namespace Cert.ExpertFfn.Ref

open Cert.ReferenceIdeal Cert.ReferenceIdeal.Read Idealize.ShloMosaic Idealize.ShloMosaic.ValueIdx

/-! ## Where each operation reads its operands, in coordinates -/

theorem lidx_first (e : Fin 8) (c : Fin 4096) (h : Fin 4096) (k : Fin 1024) : lidx_main_v0 (ix3 e c h) k = ix3 e c k :=
  funext fun a => Fin.ext (by match a with | ⟨0, _⟩ => rfl | ⟨1, _⟩ => rfl | ⟨2, _⟩ => rfl)

theorem ridx_first (e : Fin 8) (c : Fin 4096) (h : Fin 4096) (k : Fin 1024) : ridx_main_v0 (ix3 e c h) k = ix3 e k h :=
  funext fun a => Fin.ext (by match a with | ⟨0, _⟩ => rfl | ⟨1, _⟩ => rfl | ⟨2, _⟩ => rfl)

theorem idx_bias1 (e : Fin 8) (c : Fin 4096) (h : Fin 4096) : idx_main_v1 (idx_main_v2 (ix3 e c h)) = ix2 e h :=
  funext fun a => Fin.ext (by match a with | ⟨0, _⟩ => rfl | ⟨1, _⟩ => rfl)

theorem lidx_second (e : Fin 8) (c : Fin 4096) (o : Fin 1024) (k : Fin 4096) : lidx_main_v5 (ix3 e c o) k = ix3 e c k :=
  funext fun a => Fin.ext (by match a with | ⟨0, _⟩ => rfl | ⟨1, _⟩ => rfl | ⟨2, _⟩ => rfl)

theorem ridx_second (e : Fin 8) (c : Fin 4096) (o : Fin 1024) (k : Fin 4096) : ridx_main_v5 (ix3 e c o) k = ix3 e k o :=
  funext fun a => Fin.ext (by match a with | ⟨0, _⟩ => rfl | ⟨1, _⟩ => rfl | ⟨2, _⟩ => rfl)

theorem idx_bias2 (e : Fin 8) (c : Fin 4096) (o : Fin 1024) : idx_main_v6 (idx_main_v7 (ix3 e c o)) = ix2 e o :=
  funext fun a => Fin.ext (by match a with | ⟨0, _⟩ => rfl | ⟨1, _⟩ => rfl)

/-! ## The rectified first layer, then the whole result -/

/-- The reference's rectified first layer at `(e, c, h)` is `hidden e c h`. -/
theorem hidden_eq (x0 : SRows.Idx → EReal) (x1 : SW1.Idx → EReal) (x2 : SB1.Idx → EReal) (e : Fin 8) (c : Fin 4096) (h : Fin 4096) :
    val_main_v4 (F := Ideal) x0 x1 x2 (ix3 e c h) = hidden x0 x1 x2 e c h := by
  rw [val_main_v4_apply, val_main_v3_apply, val_main_v0_apply, val_main_v2_apply, val_main_v1_apply,
    val_main_call0_v0_apply, val_main_call0_cst_apply, idx_bias1]
  simp only [lidx_first, ridx_first]
  show max (_ + _) (Ideal.ofBits .f32 0x00000000#32) = _
  rw [Ideal.ofBits_zero_f32]
  rfl

/-- The reference's result is `ffn` of the five arguments. -/
theorem result_eq (x0 : SRows.Idx → EReal) (x1 : SW1.Idx → EReal) (x2 : SB1.Idx → EReal) (x3 : SRows.Idx → EReal) (x4 : SB2.Idx → EReal) :
    val_main_v8 (F := Ideal) x0 x1 x2 x3 x4 = ffn x0 x1 x2 x3 x4 := by
  funext i
  obtain ⟨e, c, o, rfl⟩ : ∃ (e : Fin 8) (c : Fin 4096) (o : Fin 1024), i = ix3 e c o := ⟨i 0, i 1, i 2, eq_ix3 i⟩
  rw [val_main_v8_apply, val_main_v5_apply, val_main_v7_apply, val_main_v6_apply, idx_bias2]
  simp only [lidx_second, ridx_second, hidden_eq]
  rfl

end Cert.ExpertFfn.Ref

end
-- ==== Proof.Piece.lean ====
/-
  What one run of the body leaves in the output's staging buffer.

  The body stores once, through the whole [1,256,1024] buffer, the value it computed from five loads: the row tile and
  the two weight blocks through their whole buffers, and ONE ROW of each bias array — row `e` of the [8,4096] and of the
  [8,1024] buffer, `e` the expert coordinate of the grid point. (It also loads the output buffer itself and discards
  what it read.) So the buffer ends holding that value, whatever it held before.
-/
import proofs.«151796_j24412594110829_1_alg».proof.Proof.Gen.KernelIdeal.Frame
import Idealize.ShloMosaic.Lib.Pipeline.Value

set_option maxRecDepth 16384

noncomputable section

namespace Cert.ExpertFfn.Piece

open Cert.KernelIdeal Cert.KernelIdeal.Gen Idealize.ShloMosaic Idealize.ShloMosaic.TcCoe Idealize.SL.Sem

variable {F : FTy → Type} [FloatOps F]

/-- The zero offsets of a whole-buffer access of rank three. -/
theorem off_zero3 : (![0, 0, 0] : Fin 3 → Nat) = fun _ => 0 := funext fun a => by fin_cases a <;> rfl

/-- Row `e` of the first bias buffer, as the body loads it: a [1,4096] rectangle at row offset `e`. -/
abbrev biasRow1 (i : grid0.Coords) (x2 : Vec F S8x4096 .f32) : Vec F S1x4096 .f32 :=
  View.ld x2 (Rect.unit (s := S8x4096) (k0_off1 i) S1x4096.size (Facts₀.k0_off1_inb i))

/-- Row `e` of the second bias buffer, as the body loads it: a [1,1024] rectangle at row offset `e`. -/
abbrev biasRow2 (i : grid0.Coords) (x4 : Vec F S8x1024 .f32) : Vec F S1x1024 .f32 :=
  View.ld x4 (Rect.unit (s := S8x1024) (k0_off2 i) S1x1024.size (Facts₀.k0_off2_inb i))

/-- After the body at grid coordinates `i`, on any whole staging buffers holding `x0 … x4`, the output's buffer reads the
    body's value of the tile, the weights and the two bias rows. -/
theorem out_eq (c : Dev nD) (i : grid0.Coords) (arg2 : Memref sig .tc .vmem S1x256x1024 .bf16) (harg2 : arg2.IsWhole) (arg3 : Memref sig .tc .vmem S1x1024x4096 .bf16) (harg3 : arg3.IsWhole) (arg4 : Memref sig .tc .vmem S8x4096 .f32) (harg4 : arg4.IsWhole) (arg5 : Memref sig .tc .vmem S1x4096x1024 .bf16) (harg5 : arg5.IsWhole) (arg6 : Memref sig .tc .vmem S8x1024 .f32) (harg6 : arg6.IsWhole) (arg7 : Memref sig .tc .vmem S1x256x1024 .f32) (harg7 : arg7.IsWhole)
    (x0 : Vec F S1x256x1024 .bf16) (x1 : Vec F S1x1024x4096 .bf16) (x2 : Vec F S8x4096 .f32) (x3 : Vec F S1x4096x1024 .bf16) (x4 : Vec F S8x1024 .f32) :
    out0_A_5 c i arg2 harg2 arg3 harg3 arg4 harg4 arg5 harg5 arg6 harg6 arg7 harg7 x0 x1 x2 x3 x4
      = k0_pay1 x0 x1 (biasRow1 i x2) x3 (biasRow2 i x4) := by
  unfold out0_A_5
  rw [View.read_writes_eq_canon _ _ _ (cover0_A_5 c i arg2 harg2 arg3 harg3 arg4 harg4 arg5 harg5 arg6 harg6 arg7 harg7 x0 x1 x2 x3 x4)]
  unfold kernelRun0_A
  dsimp only
  rw [View.canon_unit_zero off_zero3]
  simp only [View.readAt_eq_ld, harg2.read_unread, harg3.read_unread, harg4.read_unread, harg5.read_unread, harg6.read_unread,
    View.ld_unit_zero (S := S1x256x1024) off_zero3, View.ld_unit_zero (S := S1x1024x4096) off_zero3,
    View.ld_unit_zero (S := S1x4096x1024) off_zero3]

end Cert.ExpertFfn.Piece

end
-- ==== Proof.LibPlainDot.lean ====
/-
  A plain matrix product read index by index over the extended reals.

  For the dimension numbers of an `M×K` by `K×N` product (contract the left operand's second axis with the right
  operand's first; no batch axis) both the accelerator's matrix product into a zero accumulator and the host's
  `dot_general` are, at the exact (extended-real) values, the function
      (i, j) ↦ ∑ k < K, l (i, k) · r (k, j).
  Row `i` of the product depends on row `i` of the left operand only, so a block of rows of the product is the
  product of the same block of rows of the left operand: this is what lets a product computed tile by tile over the
  row axis be compared with one whole product.
-/
import Idealize.ShloMosaic.PureOps.Ideal.Laws
import Idealize.ShloMosaic.Lib.ValueIdx

noncomputable section

namespace Cert.Lib.PlainDot

open Idealize.ShloMosaic Idealize.ShloMosaic.ValueIdx

/-- The matrix product of an `M×K` and a `K×N` array of extended reals, index by index. -/
def mm {M K N : Nat} (l : (⟨2, ![M, K]⟩ : Shape).Idx → EReal) (r : (⟨2, ![K, N]⟩ : Shape).Idx → EReal) :
    (⟨2, ![M, N]⟩ : Shape).Idx → EReal :=
  fun j => ∑ k : Fin K, l (ix2 (j 0) k) * r (ix2 k (j 1))

theorem mm_apply {M K N : Nat} (l : (⟨2, ![M, K]⟩ : Shape).Idx → EReal) (r : (⟨2, ![K, N]⟩ : Shape).Idx → EReal)
    (i : Fin M) (j : Fin N) : mm l r (ix2 i j) = ∑ k : Fin K, l (ix2 i k) * r (ix2 k j) := rfl

/-- The sum over the one-axis contraction index of the plain dimension numbers is the sum over `k < K` of the
    left operand at `(i, k)` times the right operand at `(k, j)`. -/
theorem contr_sum (M K N : Nat) (l : (⟨2, ![M, K]⟩ : Shape).Idx → EReal) (r : (⟨2, ![K, N]⟩ : Shape).Idx → EReal)
    (j : (⟨2, ![M, N]⟩ : Shape).Idx) :
    ∑ q : (DotDims.plain M K N).contr.Idx, l ((DotDims.plain M K N).lhsIdx j q) * r ((DotDims.plain M K N).rhsIdx j q)
      = mm l r j := by
  unfold mm
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact ((DotDims.plain M K N).lhsIdx_val_of_single (cl := 1) rfl j _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single (cr := 0) rfl j _).trans hk
      | ⟨1, _⟩ => rfl)
  rw [el, er]
  rfl

/-- The accelerator's matrix product into the zero accumulator, at the exact values, is `mm`. -/
theorem matmul_zero {M K N : Nat} {φ₁ φ₂ : FTy} (prec : Option ContractPrecision)
    (l : FVec Ideal ⟨2, ![M, K]⟩ φ₁) (r : FVec Ideal ⟨2, ![K, N]⟩ φ₂) :
    matmul (F := Ideal) (DotDims.plain M K N) prec l r (constant (F := Ideal) ⟨2, ![M, N]⟩ .f32 0x00000000#32) = mm l r :=
  funext fun j => (Ideal.matmul_constant_zero_apply (DotDims.plain M K N) prec l r j).trans (contr_sum M K N l r j)

/-- The host's `dot_general`, at the exact values, is `mm`. -/
theorem dotGeneral {M K N : Nat} {φ₁ φ₂ : FTy} (prec : Option ContractPrecision)
    (l : FVec Ideal ⟨2, ![M, K]⟩ φ₁) (r : FVec Ideal ⟨2, ![K, N]⟩ φ₂) :
    Host.dotGeneral (F := Ideal) (DotDims.plain M K N) prec l r = mm l r :=
  funext fun j => (Ideal.dotGeneral_apply (DotDims.plain M K N) prec .single l r j).trans (contr_sum M K N l r j)

/-- Row locality: a row of the product reads the same row of the left operand. If `l'` at `(p, k)` is `l` at `(i, k)`
    for every `k`, the products agree at `(p, j)` and `(i, j)`. -/
theorem mm_row {M M' K N : Nat} (l : (⟨2, ![M, K]⟩ : Shape).Idx → EReal) (l' : (⟨2, ![M', K]⟩ : Shape).Idx → EReal)
    (r : (⟨2, ![K, N]⟩ : Shape).Idx → EReal) (i : Fin M) (p : Fin M') (j : Fin N)
    (h : ∀ k : Fin K, l' (ix2 p k) = l (ix2 i k)) : mm l' r (ix2 p j) = mm l r (ix2 i j) := by
  rw [mm_apply, mm_apply]
  exact Finset.sum_congr rfl fun k _ => by rw [h k]

end Cert.Lib.PlainDot

end
-- ==== Proof.Tile.lean ====
/-
  What the kernel body computes on one tile.

  The body holds a tile of 256 rows of one expert (a [1,256,1024] block), that expert's two weight matrices
  ([1,1024,4096] and [1,4096,1024] blocks) and one row of each bias array ([1,4096] and [1,1024]). It multiplies the
  tile by the first weights into a zero accumulator, adds the bias row to every row, takes the maximum with zero,
  multiplies by the second weights into a zero accumulator and adds the second bias row. Read at row `r` and output
  column `o` of the tile this is
      ∑ h, max (∑ m, a[0,r,m] · w₁[0,m,h] + b₁[0,h]) 0 · w₂[0,h,o] + b₂[0,o];
  the narrowing of the hidden tile to the shorter float format is the identity on exact values, and so is every
  reshaping between [1,n,k] and [n,k] or [1,k] and [k].
-/
import proofs.«151796_j24412594110829_1_alg».proof.Proof.Gen.KernelIdeal.Skeleton
import proofs.«151796_j24412594110829_1_alg».proof.Proof.LibPlainDot
import Idealize.ShloMosaic.Lib.ValueLayout
import Idealize.ShloMosaic.PureOps.Ideal.Laws

noncomputable section

namespace Cert.ExpertFfn.Tile

open Cert.KernelIdeal Cert.KernelIdeal.Gen Idealize.ShloMosaic Idealize.ShloMosaic.ValueIdx
open Cert.Lib

/-- The two-layer network on one tile, at row `r` and output column `o`, from the tile, the expert's weights and the
    expert's bias rows. -/
def tileAt (a : S1x256x1024.Idx → EReal) (w1 : S1x1024x4096.Idx → EReal) (b1 : S1x4096.Idx → EReal)
    (w2 : S1x4096x1024.Idx → EReal) (b2 : S1x1024.Idx → EReal) (r : Fin 256) (o : Fin 1024) : EReal :=
  (∑ h : Fin 4096, max ((∑ m : Fin 1024, a (ix3 (0 : Fin 1) r m) * w1 (ix3 (0 : Fin 1) m h)) + b1 (ix2 (0 : Fin 1) h)) 0
      * w2 (ix3 (0 : Fin 1) h o)) + b2 (ix2 (0 : Fin 1) o)

/-- The first product's dimension numbers are those of a plain 256×1024 by 1024×4096 product. -/
theorem dot1_eq : dot_S256x1024_S1024x4096_S256x4096_1_0_0_1_n_n = DotDims.plain 256 1024 4096 := rfl
/-- The second product's dimension numbers are those of a plain 256×4096 by 4096×1024 product. -/
theorem dot2_eq : dot_S256x4096_S4096x1024_S256x1024_1_0_0_1_n_n = DotDims.plain 256 4096 1024 := rfl

/-- The body's stored value, read at `(u, r, o)` of the tile, is `tileAt` of its five loads. -/
theorem pay_apply (v0 : Vec Ideal S1x256x1024 .bf16) (v2 : Vec Ideal S1x1024x4096 .bf16) (v6 : Vec Ideal S1x4096 .f32)
    (v14 : Vec Ideal S1x4096x1024 .bf16) (v18 : Vec Ideal S1x1024 .f32) (u : Fin 1) (r : Fin 256) (o : Fin 1024) :
    k0_pay1 (F := Ideal) v0 v2 v6 v14 v18 (ix3 u r o) = tileAt v0 v2 v6 v14 v18 r o := by
  simp only [k0_pay1]
  rw [shapeCast_ab_1ab_apply, addf_apply, dot2_eq, dot1_eq, PlainDot.matmul_zero, PlainDot.mm_apply,
    broadcastTo_1b_ab_apply, shapeCast_a_1a_apply, shapeCast_1a_a_apply]
  unfold tileAt
  refine congrArg (· + v18 (ix2 (0 : Fin 1) o)) (Finset.sum_congr rfl fun h _ => ?_)
  rw [truncf_apply, maximumf_apply, addf_apply, PlainDot.matmul_zero, PlainDot.mm_apply, broadcastTo_1b_ab_apply,
    shapeCast_a_1a_apply, shapeCast_1a_a_apply, broadcast_apply, shapeCast_1ab_ab_apply]
  simp only [shapeCast_1ab_ab_apply]
  show max (_ + _) (Ideal.ofBits .f32 0x00000000#32) * _ = _
  rw [Ideal.ofBits_zero_f32]

end Cert.ExpertFfn.Tile

end
-- ==== Proof.Locality.lean ====
/-
  A tile computes the whole network's rows.

  Row `c` of expert `e` depends on that row of the input, on expert `e`'s two weight matrices and on row `e` of each bias
  array, and on nothing else. So if a 256-row tile holds, at its row `r`, row `c` of expert `e`, and the weight blocks and
  bias rows it is given are expert `e`'s, then the tile's value at `(r, o)` is the network's value at `(e, c, o)`:
  the two sums are over the same index sets with equal terms, so no law of arithmetic is needed beyond congruence.
-/
import proofs.«151796_j24412594110829_1_alg».proof.Proof.Spec
import proofs.«151796_j24412594110829_1_alg».proof.Proof.Tile

noncomputable section

namespace Cert.ExpertFfn

open Cert.KernelIdeal Idealize.ShloMosaic Idealize.ShloMosaic.ValueIdx

/-- The tile's value at `(r, o)` is the network's at `(e, c, o)` when the tile's row `r`, weight blocks and bias rows are
    those of expert `e` and row `c`. -/
theorem tileAt_eq_ffnAt (x : SRows.Idx → EReal) (w1 : SW1.Idx → EReal) (b1 : SB1.Idx → EReal) (w2 : SRows.Idx → EReal)
    (b2 : SB2.Idx → EReal) (a : S1x256x1024.Idx → EReal) (bw1 : S1x1024x4096.Idx → EReal) (br1 : S1x4096.Idx → EReal)
    (bw2 : S1x4096x1024.Idx → EReal) (br2 : S1x1024.Idx → EReal) (e : Fin 8) (c : Fin 4096) (r : Fin 256) (o : Fin 1024)
    (ha : ∀ k : Fin 1024, a (ix3 (0 : Fin 1) r k) = x (ix3 e c k))
    (hw1 : ∀ (k : Fin 1024) (h : Fin 4096), bw1 (ix3 (0 : Fin 1) k h) = w1 (ix3 e k h))
    (hb1 : ∀ h : Fin 4096, br1 (ix2 (0 : Fin 1) h) = b1 (ix2 e h))
    (hw2 : ∀ h : Fin 4096, bw2 (ix3 (0 : Fin 1) h o) = w2 (ix3 e h o))
    (hb2 : br2 (ix2 (0 : Fin 1) o) = b2 (ix2 e o)) :
    Tile.tileAt a bw1 br1 bw2 br2 r o = ffnAt x w1 b1 w2 b2 e c o := by
  unfold Tile.tileAt ffnAt hidden pre1
  rw [hb2]
  refine congrArg (· + b2 (ix2 e o)) (Finset.sum_congr rfl fun h _ => ?_)
  rw [hw2 h, hb1 h]
  refine congrArg (fun s => max (s + b1 (ix2 e h)) 0 * w2 (ix3 e h o)) (Finset.sum_congr rfl fun k _ => ?_)
  rw [ha k, hw1 k h]

end Cert.ExpertFfn

end
-- ==== Proof.Blocks.lean ====
/-
  From tiles to the whole result array.

  The grid has 8 × 16 points; point (e, j) works on rows 256·j … 256·j + 255 of expert `e`. Its windows give the body:
  that tile of the (narrowed) input, expert `e`'s block of each (narrowed) weight array, and BOTH bias arrays whole, of
  which the body reads row `e`. Narrowing is the identity on exact values, so each of these is the corresponding part of
  an argument array. The body's value is therefore the network's rows 256·j … of expert `e` (`tileAt_eq_ffnAt`), it is
  written back to exactly those rows of the result, every point writes back, and the 128 blocks tile the result array:
  after the run the result array is `ffn` of the five arguments.
-/
import proofs.«151796_j24412594110829_1_alg».proof.Proof.Gen.KernelIdeal.Value
import proofs.«151796_j24412594110829_1_alg».proof.Proof.Piece
import proofs.«151796_j24412594110829_1_alg».proof.Proof.Locality
import Idealize.ShloMosaic.Lib.Pipeline.Value
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.ExpertFfn.Blocks

open Cert.KernelIdeal Cert.KernelIdeal.Gen

variable (m : (ℓ : Loc nD τ sig) → Buf (Elt Ideal) ℓ) (ρ : Dev nD → PrngReg)

/-- The network of the five argument arrays as launched, on core `c`. -/
abbrev result (c : Dev nD) : S8x4096x1024.Idx → EReal :=
  ffn (m ((c : Thread nD τ).loc main_arg0)) (m ((c : Thread nD τ).loc main_arg1)) (m ((c : Thread nD τ).loc main_arg2)) (m ((c : Thread nD τ).loc main_arg3)) (m ((c : Thread nD τ).loc main_arg4))

/-! ## The arrays the region finds: the narrowed copies are the arguments -/

theorem entry_rows (c : Dev nD) : (V m c main_v0 : S8x4096x1024.Idx → EReal) = (m ((c : Thread nD τ).loc main_arg0)) := by
  dsimp only [V, hostOps0]; after_results; rfl

theorem entry_w1 (c : Dev nD) : (V m c main_v1 : S8x1024x4096.Idx → EReal) = (m ((c : Thread nD τ).loc main_arg1)) := by
  dsimp only [V, hostOps0]; after_results; rfl

theorem entry_w2 (c : Dev nD) : (V m c main_v2 : S8x4096x1024.Idx → EReal) = (m ((c : Thread nD τ).loc main_arg3)) := by
  dsimp only [V, hostOps0]; after_results; rfl

/-! ## The index maps, decided once over the 128 grid points -/

/-- At every point: the input tile moves with the output tile; the weight blocks follow the expert coordinate; the bias
    arrays are staged whole; the body's bias row is the expert coordinate; and the output's block indices are in range. -/
theorem idx_facts : ∀ t : Fin cfg0.N,
    win0_0.index t (0 : Fin 3) = win0_5.index t (0 : Fin 3) ∧ win0_0.index t (1 : Fin 3) = win0_5.index t (1 : Fin 3)
    ∧ win0_0.index t (2 : Fin 3) = 0
    ∧ win0_1.index t (0 : Fin 3) = win0_5.index t (0 : Fin 3) ∧ win0_1.index t (1 : Fin 3) = 0 ∧ win0_1.index t (2 : Fin 3) = 0
    ∧ win0_2.index t (0 : Fin 2) = 0 ∧ win0_2.index t (1 : Fin 2) = 0
    ∧ win0_3.index t (0 : Fin 3) = win0_5.index t (0 : Fin 3) ∧ win0_3.index t (1 : Fin 3) = 0 ∧ win0_3.index t (2 : Fin 3) = 0
    ∧ win0_4.index t (0 : Fin 2) = 0 ∧ win0_4.index t (1 : Fin 2) = 0
    ∧ (grid0.coords t (0 : Fin 2)).val = win0_5.index t (0 : Fin 3)
    ∧ win0_5.index t (0 : Fin 3) < 8 ∧ win0_5.index t (1 : Fin 3) < 16 ∧ win0_5.index t (2 : Fin 3) = 0 :=
  (by decide +kernel : ∀ t : Fin grid0.N, _)

/-- Every block of the result is some point's. -/
theorem idx_onto : ∀ (q0 : Fin 8) (q1 : Fin 16), ∃ t : Fin cfg0.N, win0_5.index t = ![q0.val, q1.val, 0] :=
  (by decide +kernel : ∀ (q0 : Fin 8) (q1 : Fin 16), ∃ t : Fin grid0.N, win0_5.index t = ![q0.val, q1.val, 0])

/-! ## Each input block as part of an argument array -/

section
variable (c : Dev nD) (t : Fin cfg0.N) (e : Fin 8) (he : e.val = win0_5.index t (0 : Fin 3))
include he

/-- The input tile's row `r` is row `256·j + r` of expert `e`. -/
theorem tile_apply (r : Fin 256) (k : Fin 1024) (row : Fin 4096) (hrow : row.val = win0_5.index t (1 : Fin 3) * 256 + r.val) :
    (iblk m c 0 t : Vec Ideal S1x256x1024 .bf16) (ix3 (0 : Fin 1) r k) = (m ((c : Thread nD τ).loc main_arg0)) (ix3 e row k) := by
  obtain ⟨f0, f1, f2, -⟩ := idx_facts t
  unfold iblk
  rw [View.read_apply]
  show V m c main_v0 _ = _
  rw [entry_rows]
  congr 1
  funext a
  apply Fin.ext
  match a with
  | ⟨0, _⟩ => show win0_0.index t (0 : Fin 3) * 1 + 1 * 0 = e.val; omega
  | ⟨1, _⟩ => show win0_0.index t (1 : Fin 3) * 256 + 1 * r.val = row.val; omega
  | ⟨2, _⟩ => show win0_0.index t (2 : Fin 3) * 1024 + 1 * k.val = k.val; omega

/-- The first weight block is expert `e`'s matrix. -/
theorem w1_apply (k : Fin 1024) (h : Fin 4096) :
    (iblk m c 1 t : Vec Ideal S1x1024x4096 .bf16) (ix3 (0 : Fin 1) k h) = (m ((c : Thread nD τ).loc main_arg1)) (ix3 e k h) := by
  obtain ⟨-, -, -, f0, f1, f2, -⟩ := idx_facts t
  unfold iblk
  rw [View.read_apply]
  show V m c main_v1 _ = _
  rw [entry_w1]
  congr 1
  funext a
  apply Fin.ext
  match a with
  | ⟨0, _⟩ => show win0_1.index t (0 : Fin 3) * 1 + 1 * 0 = e.val; omega
  | ⟨1, _⟩ => show win0_1.index t (1 : Fin 3) * 1024 + 1 * k.val = k.val; omega
  | ⟨2, _⟩ => show win0_1.index t (2 : Fin 3) * 4096 + 1 * h.val = h.val; omega

/-- The second weight block is expert `e`'s matrix. -/
theorem w2_apply (h : Fin 4096) (o : Fin 1024) :
    (iblk m c 3 t : Vec Ideal S1x4096x1024 .bf16) (ix3 (0 : Fin 1) h o) = (m ((c : Thread nD τ).loc main_arg3)) (ix3 e h o) := by
  obtain ⟨-, -, -, -, -, -, -, -, f0, f1, f2, -⟩ := idx_facts t
  unfold iblk
  rw [View.read_apply]
  show V m c main_v2 _ = _
  rw [entry_w2]
  congr 1
  funext a
  apply Fin.ext
  match a with
  | ⟨0, _⟩ => show win0_3.index t (0 : Fin 3) * 1 + 1 * 0 = e.val; omega
  | ⟨1, _⟩ => show win0_3.index t (1 : Fin 3) * 4096 + 1 * h.val = h.val; omega
  | ⟨2, _⟩ => show win0_3.index t (2 : Fin 3) * 1024 + 1 * o.val = o.val; omega

/-- The row of the first bias array the body loads is expert `e`'s. -/
theorem b1_apply (h : Fin 4096) :
    Piece.biasRow1 (grid0.coords t) (iblk m c 2 t) (ix2 (0 : Fin 1) h) = (m ((c : Thread nD τ).loc main_arg2)) (ix2 e h) := by
  obtain ⟨-, -, -, -, -, -, f0, f1, -, -, -, -, -, fe, -⟩ := idx_facts t
  have hoff : k0_off1 (grid0.coords t) (0 : Fin 2) = (grid0.coords t (0 : Fin 2)).val := by rw [k0_off1_eq]; rfl
  have hoff' : k0_off1 (grid0.coords t) (1 : Fin 2) = 0 := by rw [k0_off1_eq]; rfl
  show (iblk m c 2 t : Vec Ideal S8x4096 .f32) _ = _
  unfold iblk
  rw [View.read_apply]
  show V m c main_arg2 _ = _
  rw [V_main_arg2]
  congr 1
  funext a
  apply Fin.ext
  match a with
  | ⟨0, _⟩ => show win0_2.index t (0 : Fin 2) * 8 + 1 * (k0_off1 (grid0.coords t) (0 : Fin 2) + 1 * 0) = e.val; omega
  | ⟨1, _⟩ => show win0_2.index t (1 : Fin 2) * 4096 + 1 * (k0_off1 (grid0.coords t) (1 : Fin 2) + 1 * h.val) = h.val; omega

/-- The row of the second bias array the body loads is expert `e`'s. -/
theorem b2_apply (o : Fin 1024) :
    Piece.biasRow2 (grid0.coords t) (iblk m c 4 t) (ix2 (0 : Fin 1) o) = (m ((c : Thread nD τ).loc main_arg4)) (ix2 e o) := by
  obtain ⟨-, -, -, -, -, -, -, -, -, -, -, f0, f1, fe, -⟩ := idx_facts t
  have hoff : k0_off2 (grid0.coords t) (0 : Fin 2) = (grid0.coords t (0 : Fin 2)).val := by rw [k0_off2_eq]; rfl
  have hoff' : k0_off2 (grid0.coords t) (1 : Fin 2) = 0 := by rw [k0_off2_eq]; rfl
  show (iblk m c 4 t : Vec Ideal S8x1024 .f32) _ = _
  unfold iblk
  rw [View.read_apply]
  show V m c main_arg4 _ = _
  rw [V_main_arg4]
  congr 1
  funext a
  apply Fin.ext
  match a with
  | ⟨0, _⟩ => show win0_4.index t (0 : Fin 2) * 8 + 1 * (k0_off2 (grid0.coords t) (0 : Fin 2) + 1 * 0) = e.val; omega
  | ⟨1, _⟩ => show win0_4.index t (1 : Fin 2) * 1024 + 1 * (k0_off2 (grid0.coords t) (1 : Fin 2) + 1 * o.val) = o.val; omega

end

/-! ## What a point computes and writes back -/

/-- The body's value at point `t`: of the point's blocks, the bias rows read at the expert coordinate. -/
abbrev pointVal (c : Dev nD) (t : Fin cfg0.N) : Vec Ideal S1x256x1024 .f32 :=
  k0_pay1 (F := Ideal) (iblk m c 0 t) (iblk m c 1 t) (Piece.biasRow1 (grid0.coords t) (iblk m c 2 t)) (iblk m c 3 t)
    (Piece.biasRow2 (grid0.coords t) (iblk m c 4 t))

/-- At tile coordinates `(u, r, o)` it is the network at expert `e`, row `256·j + r`, output `o`. -/
theorem pointVal_apply (c : Dev nD) (t : Fin cfg0.N) (e : Fin 8) (he : e.val = win0_5.index t (0 : Fin 3)) (u : Fin 1) (r : Fin 256)
    (o : Fin 1024) (row : Fin 4096) (hrow : row.val = win0_5.index t (1 : Fin 3) * 256 + r.val) :
    pointVal m c t (ix3 u r o) = result m c (ix3 e row o) :=
  (Tile.pay_apply (iblk m c 0 t) (iblk m c 1 t) (Piece.biasRow1 (grid0.coords t) (iblk m c 2 t)) (iblk m c 3 t)
      (Piece.biasRow2 (grid0.coords t) (iblk m c 4 t)) u r o).trans
    (tileAt_eq_ffnAt (m ((c : Thread nD τ).loc main_arg0)) (m ((c : Thread nD τ).loc main_arg1)) (m ((c : Thread nD τ).loc main_arg2)) (m ((c : Thread nD τ).loc main_arg3)) (m ((c : Thread nD τ).loc main_arg4))
      (iblk m c 0 t) (iblk m c 1 t) (Piece.biasRow1 (grid0.coords t) (iblk m c 2 t)) (iblk m c 3 t)
      (Piece.biasRow2 (grid0.coords t) (iblk m c 4 t)) e row r o
      (fun k => tile_apply m c t e he r k row hrow) (fun k h => w1_apply m c t e he k h) (fun h => b1_apply m c t e he h)
      (fun h => w2_apply m c t e he h o) (b2_apply m c t e he o))

/-- What point `t` writes back is the body's value there. -/
theorem flushed_pt (c : Dev nD) (t : Fin cfg0.N) :
    (dats m 0 c).flushed 5 t = (cfg0.win 5).cut (grid0.coords t) (pointVal m c t) := by
  rw [Value.flushed5_A, Piece.out_eq]

/-- … which is block `t` of the network of the arguments. -/
theorem flushed_eq (c : Dev nD) (t : Fin cfg0.N) :
    (dats m 0 c).flushed 5 t = ((cfg0.win 5).blk t).view.read (Elt Ideal) (result m c) := by
  rw [flushed_pt]
  obtain ⟨-, -, -, -, -, -, -, -, -, -, -, -, -, -, g0, g1, g2⟩ := idx_facts t
  funext y
  rw [View.read_apply]
  have hy0 : (y 0).val < 1 := (y 0).isLt
  have hy1 : (y 1).val < 256 := (y 1).isLt
  have hy2 : (y 2).val < 1024 := (y 2).isLt
  have ex : win0_5.xinj (grid0.coords t) y = ix3 (⟨(y 0).val, hy0⟩ : Fin 1) (⟨(y 1).val, hy1⟩ : Fin 256) (⟨(y 2).val, hy2⟩ : Fin 1024) :=
    funext fun a => Fin.ext (by match a with | ⟨0, _⟩ => rfl | ⟨1, _⟩ => rfl | ⟨2, _⟩ => rfl)
  have ek : ((cfg0.win 5).blk t).view.emb y
      = ix3 (⟨win0_5.index t (0 : Fin 3), g0⟩ : Fin 8) (⟨win0_5.index t (1 : Fin 3) * 256 + (y 1).val, by omega⟩ : Fin 4096) (⟨(y 2).val, hy2⟩ : Fin 1024) :=
    funext fun a => Fin.ext (by
      match a with
      | ⟨0, _⟩ => show win0_5.index t (0 : Fin 3) * 1 + 1 * (y 0).val = win0_5.index t (0 : Fin 3); omega
      | ⟨1, _⟩ => show win0_5.index t (1 : Fin 3) * 256 + 1 * (y 1).val = win0_5.index t (1 : Fin 3) * 256 + (y 1).val; omega
      | ⟨2, _⟩ => show win0_5.index t (2 : Fin 3) * 1024 + 1 * (y 2).val = (y 2).val; omega)
  show pointVal m c t (win0_5.xinj (grid0.coords t) y) = _
  rw [ex, ek]
  exact pointVal_apply m c t _ rfl _ _ _ _ rfl

/-! ## The cover, the final array, the run -/

/-- An index of the result array is in point `t`'s block iff each coordinate is in the block's range on its axis. -/
theorem mem_blk (t : Fin cfg0.N) (i : S8x4096x1024.Idx) :
    i ∈ ((cfg0.win 5).blk t).view.set ↔ ∀ a : Fin 3, win0_5.index t a * S1x256x1024.size a ≤ (i a).val ∧ (i a).val < win0_5.index t a * S1x256x1024.size a + S1x256x1024.size a := by
  show i ∈ ((View.whole main_v3).slice (win0_5.rect t)).set ↔ _
  rw [View.set_slice_whole, Rect.mem_set_unit]
  exact Iff.rfl

/-- Every index of the result array is in the block of the point (expert, row / 256). -/
theorem cover (i : S8x4096x1024.Idx) : ∃ t : Fin cfg0.N, (cfg0.win 5).flush t = true ∧ i ∈ ((cfg0.win 5).blk t).view.set := by
  have hi0 : (i 0).val < 8 := (i 0).isLt
  have hi1 : (i 1).val < 4096 := (i 1).isLt
  have hi2 : (i 2).val < 1024 := (i 2).isLt
  obtain ⟨t, ht⟩ := idx_onto ⟨(i 0).val, hi0⟩ ⟨(i 1).val / 256, by omega⟩
  have q0 : win0_5.index t (0 : Fin 3) = (i 0).val := congrFun ht 0
  have q1 : win0_5.index t (1 : Fin 3) = (i 1).val / 256 := congrFun ht 1
  have q2 : win0_5.index t (2 : Fin 3) = 0 := congrFun ht 2
  refine ⟨t, flush0_5 t, ?_⟩
  rw [mem_blk]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 256 ≤ (i 1).val ∧ (i 1).val < win0_5.index t (1 : Fin 3) * 256 + 256; omega
  | ⟨2, _⟩ => show win0_5.index t (2 : Fin 3) * 1024 ≤ (i 2).val ∧ (i 2).val < win0_5.index t (2 : Fin 3) * 1024 + 1024; omega

/-- After the run the result array is the network of the arguments. -/
theorem final (c : Dev nD) : (dats m 0 c).arrAt 5 cfg0.N = result m c :=
  (dats m 0 c).arrAt_eq_of_cover 5 (result m c) (fun t _ => flushed_eq m c t) cover

/-- The kernel's run, read: the result array at the network of the arguments, the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.ExpertFfn.Blocks

end
-- ==== Proof.lean ====
/-
  A fused two-layer expert network against its plain reference, on the extended reals.

  Eight experts each own 4096 rows of 1024 features and two dense layers,
      out[e,c,o] = ∑ h, max (∑ m, x[e,c,m] · w₁[e,m,h] + b₁[e,h]) 0 · w₂[e,h,o] + b₂[e,o].
  The reference computes this with two batched products, two broadcast biases and a maximum with zero. The kernel
  narrows the rows and the weights to a shorter float format (the identity on exact values), then runs a grid of
  8 × 16 points; a point takes 256 rows of one expert, multiplies them by that expert's first weights into a zero
  accumulator, adds the expert's bias row, rectifies, narrows (again the identity), multiplies by the second weights
  into a zero accumulator and adds the second bias row, and writes the 256 result rows back.

  Both sides are the same sums over the same index sets with equal terms: a product into a zero accumulator is the
  plain sum over the contracted axis, as the host's product is; a row of the result depends only on that row of the
  input and on the expert's own weights and biases; and the 128 row blocks tile the result. No rearrangement of a sum
  is made, so the finiteness of the inputs is never used.

  The pieces: `Spec` (the function), `RefIsFfn` (the reference computes it), `Tile` (the body's value on a tile),
  `Piece` (what the body leaves in the output buffer), `Locality` (a tile computes the function's rows), `Blocks` (the
  tiles are the arguments' rows, the blocks tile the result: the kernel computes it). Here: the five claims.
-/
import proofs.«151796_j24412594110829_1_alg».proof.Defs
import proofs.«151796_j24412594110829_1_alg».proof.Proof.Gen.Kernel
import proofs.«151796_j24412594110829_1_alg».proof.Proof.Gen.Kernel.Skeleton
import proofs.«151796_j24412594110829_1_alg».proof.Proof.Gen.Kernel.Launch
import proofs.«151796_j24412594110829_1_alg».proof.Proof.Gen.Kernel.Points
import proofs.«151796_j24412594110829_1_alg».proof.Proof.Gen.Kernel.Frame
import proofs.«151796_j24412594110829_1_alg».proof.Proof.Gen.KernelIdeal
import proofs.«151796_j24412594110829_1_alg».proof.Proof.Gen.KernelIdeal.Skeleton
import proofs.«151796_j24412594110829_1_alg».proof.Proof.Gen.KernelIdeal.Launch
import proofs.«151796_j24412594110829_1_alg».proof.Proof.Gen.KernelIdeal.Points
import proofs.«151796_j24412594110829_1_alg».proof.Proof.Gen.KernelIdeal.Frame
import proofs.«151796_j24412594110829_1_alg».proof.Proof.Gen.ReferenceIdeal
import proofs.«151796_j24412594110829_1_alg».proof.Proof.Gen.Pre_finite_inputs
import proofs.«151796_j24412594110829_1_alg».proof.Proof.Gen.KernelIdeal.Value
import proofs.«151796_j24412594110829_1_alg».proof.Proof.Gen.ReferenceIdeal.Run
import proofs.«151796_j24412594110829_1_alg».proof.Proof.Gen.ReferenceIdeal.Read
import proofs.«151796_j24412594110829_1_alg».proof.Proof.RefIsFfn
import proofs.«151796_j24412594110829_1_alg».proof.Proof.Blocks
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the kernel read on exact values. -/
theorem frame_ideal : Cert.frame_KernelIdeal := fun m ρ _ => Cert.KernelIdeal.Gen.frame m ρ

/-- The reference runs and leaves its arguments as they were: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Reading the kernel on exact values rewrote no operation. -/
theorem preserves : Cert.preserves_Kernel_KernelIdeal := trivial

/-- From memories that agree on the five arguments both programs end with the result array at the network of those
    arguments: the kernel block by block, the reference operation by operation. -/
theorem algebraic : Cert.algebraic_KernelIdeal_ReferenceIdeal := by
  intro m ρ m' ρ' _ hagree
  refine ⟨fun c => Cert.ExpertFfn.Blocks.result m c, Cert.ExpertFfn.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, (hagree c).1, (hagree c).2.1, (hagree c).2.2.1, (hagree c).2.2.2.1,
    (hagree c).2.2.2.2]
  exact Cert.ExpertFfn.Ref.result_eq _ _ _ _ _

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
